-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x1024 : Shape := ⟨2, ![4096, 1024]⟩
abbrev S1024 : Shape := ⟨1, ![1024]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4x2048x4096 .f32) (main_arg1 : FVec F S4096x1024 .f32) (main_arg2 : IVec S1024 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4x2048x4096 : Shape := ⟨3, ![4, 2048, 4096]⟩
abbrev S4096x1024 : Shape := ⟨2, ![4096, 1024]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S4x2048x1024 : Shape := ⟨3, ![4, 2048, 1024]⟩
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x2048 : Shape := ⟨2, ![1024, 2048]⟩

abbrev nBuf : Space → Nat
  | .hbm => 32
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .f32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S1, .i32⟩
  | .hbm, ⟨12, _⟩ => ⟨S_, .i32⟩
  | .hbm, ⟨13, _⟩ => ⟨S1024x1, .i32⟩
  | .hbm, ⟨14, _⟩ => ⟨S1024x1, .i1⟩
  | .hbm, ⟨15, _⟩ => ⟨S1x1, .i32⟩
  | .hbm, ⟨16, _⟩ => ⟨S1024x1, .i32⟩
  | .hbm, ⟨17, _⟩ => ⟨S1024x1, .i1⟩
  | .hbm, ⟨18, _⟩ => ⟨S1024x1, .i1⟩
  | .hbm, ⟨19, _⟩ => ⟨S_, .i1⟩
  | .hbm, ⟨20, _⟩ => ⟨S1024, .i1⟩
  | .hbm, ⟨21, _⟩ => ⟨S4x2048x1024, .f32⟩
  | .hbm, ⟨22, _⟩ => ⟨S4x2048x1024, .i1⟩
  | .hbm, ⟨23, _⟩ => ⟨S_, .f32⟩
  | .hbm, ⟨24, _⟩ => ⟨S4x2048x1024, .f32⟩
  | .hbm, ⟨25, _⟩ => ⟨S4x2048x1024, .f32⟩
  | .hbm, ⟨26, _⟩ => ⟨S8192x1024, .f32⟩
  | .hbm, ⟨27, _⟩ => ⟨S8192x1024, .bf16⟩
  | .hbm, ⟨28, _⟩ => ⟨S1024x4096, .f32⟩
  | .hbm, ⟨29, _⟩ => ⟨S1024x4096, .bf16⟩
  | .hbm, ⟨30, _⟩ => ⟨S8192x4096, .f32⟩
  | .hbm, ⟨31, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S4x2048x1024_2 : S1024.BroadcastsInDim S4x2048x1024 (![2] : Fin 1 → Fin S4x2048x1024.rank)
  bcast_S_S4x2048x1024 : S_.BroadcastsInDim S4x2048x1024 (![] : Fin 0 → Fin S4x2048x1024.rank)
  shapeCasts_S4x2048x1024_S8192x1024 : S4x2048x1024.ShapeCasts S8192x1024
  bitsLt_bf16_f32 : FTy.bits .bf16 < FTy.bits .f32
  transposes_S4096x1024_S1024x4096_1_0 : S4096x1024.Transposes [1, 0] S1024x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S8192x4096_S4x2048x4096 : S8192x4096.ShapeCasts S4x2048x4096
  gather_S4x2048x4096_S1024x1_S4x2048x1024_01_2_n_n_2_1_420481_wf : GatherDims.WF S4x2048x4096 S1024x1 S4x2048x1024 [0, 1] [2] [] [2] [] 1 ![4, 2048, 1]
  dot_S1024x1024_S1024x2048_S1024x2048_1_0_0_1_n_n_wf : DotDims.WF S1024x1024 S1024x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x4096.size a
  hwx0_1 : ∀ i : grid0.Coords, EltTy.bits .bf16 = 32 ∨ (Rect.block (s := S1024x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x4096.size a
  hwx0_2 : ∀ i : grid0.Coords, EltTy.bits .f32 = 32 ∨ (Rect.block (s := S8192x4096) S1024x2048.size (cc0_transform_2 i) (hinb0_2 i)).WholeWords (EltTy.packing .f32)

variable [Facts₀]

def gather_S4x2048x4096_S1024x1_S4x2048x1024_01_2_n_n_2_1_420481 : GatherDims S4x2048x4096 S1024x1 S4x2048x1024 where
  offsetDims := [0, 1]
  collapsedSliceDims := [2]
  operandBatchingDims := []
  startIndicesBatchingDims := []
  startIndexMap := [2]
  indexVectorDim := 1
  sliceSizes := ![4, 2048, 1]
  wf := gather_S4x2048x4096_S1024x1_S4x2048x1024_01_2_n_n_2_1_420481_wf
def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x1024 : Shape := ⟨2, ![4096, 1024]⟩
abbrev S1024 : Shape := ⟨1, ![1024]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S4x2048x1024 : Shape := ⟨3, ![4, 2048, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .f32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S1, .i32⟩
  | .hbm, ⟨12, _⟩ => ⟨S_, .i32⟩
  | .hbm, ⟨13, _⟩ => ⟨S1024x1, .i32⟩
  | .hbm, ⟨14, _⟩ => ⟨S1024x1, .i1⟩
  | .hbm, ⟨15, _⟩ => ⟨S1x1, .i32⟩
  | .hbm, ⟨16, _⟩ => ⟨S1024x1, .i32⟩
  | .hbm, ⟨17, _⟩ => ⟨S1024x1, .i1⟩
  | .hbm, ⟨18, _⟩ => ⟨S1024x1, .i1⟩
  | .hbm, ⟨19, _⟩ => ⟨S_, .i1⟩
  | .hbm, ⟨20, _⟩ => ⟨S1024, .i1⟩
  | .hbm, ⟨21, _⟩ => ⟨S4x2048x1024, .f32⟩
  | .hbm, ⟨22, _⟩ => ⟨S4x2048x1024, .i1⟩
  | .hbm, ⟨23, _⟩ => ⟨S_, .f32⟩
  | .hbm, ⟨24, _⟩ => ⟨S4x2048x1024, .f32⟩
  | .hbm, ⟨25, _⟩ => ⟨S4x2048x1024, .f32⟩
  | .hbm, ⟨26, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S4x2048x1024_2 : S1024.BroadcastsInDim S4x2048x1024 (![2] : Fin 1 → Fin S4x2048x1024.rank)
  bcast_S_S4x2048x1024 : S_.BroadcastsInDim S4x2048x1024 (![] : Fin 0 → Fin S4x2048x1024.rank)
  gather_S4x2048x4096_S1024x1_S4x2048x1024_01_2_n_n_2_1_420481_wf : GatherDims.WF S4x2048x4096 S1024x1 S4x2048x1024 [0, 1] [2] [] [2] [] 1 ![4, 2048, 1]
  dot_S4x2048x1024_S4096x1024_S4x2048x4096_2_1_01_0_n_n_wf : DotDims.WF S4x2048x1024 S4096x1024 S4x2048x4096 [2] [1] [0, 1] [0] [] []

variable [Facts₀]

def gather_S4x2048x4096_S1024x1_S4x2048x1024_01_2_n_n_2_1_420481 : GatherDims S4x2048x4096 S1024x1 S4x2048x1024 where
  offsetDims := [0, 1]
  collapsedSliceDims := [2]
  operandBatchingDims := []
  startIndicesBatchingDims := []
  startIndexMap := [2]
  indexVectorDim := 1
  sliceSizes := ![4, 2048, 1]
  wf := gather_S4x2048x4096_S1024x1_S4x2048x1024_01_2_n_n_2_1_420481_wf
def dot_S4x2048x1024_S4096x1024_S4x2048x4096_2_1_01_0_n_n : DotDims S4x2048x1024 S4096x1024 S4x2048x4096 where
  lhsContracting := [2]
  rhsContracting := [1]
  lhsNonContracting := [0, 1]
  rhsNonContracting := [0]
  lhsBatch := []
  rhsBatch := []
  wf := dot_S4x2048x1024_S4096x1024_S4x2048x4096_2_1_01_0_n_n_wf

class Facts : Prop extends Facts₀ where

variable [Facts]
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibFlatten.lean ====
/-
  Flattening shape casts read at an index written by coordinates: the two reshapes that merge adjacent axes of a
  row-major array, general in the extents.
  • `shapeCast_abc_nc_apply`  [a, b, c] → [n, c] with n = a·b : row i·b + j, column k reads (i, j, k)
  • `shapeCast_nc_ad_apply`   [n, c] → [a, d] with n = a·b, d = b·c : row p, lane q·c + r reads row p·b + q, column r
  Each is the parent lemma of Lib/Pipeline/Value.lean (`shapeCast_apply`: a shape cast reads the operand at the index
  with the same row-major position) with both indices written `ix2 …` / `ix3 …`; the row-major positions agree by the
  distributive law of the naturals.
-/
import Idealize.ShloMosaic.Lib.ValueLayout

namespace Cert.LibFlatten

open Idealize.ShloMosaic Idealize.ShloMosaic.ValueIdx

variable {α : Type}

/-- An `[a, b, c]` array cast to `[n, c]` (the two leading axes merged, so n = a·b) reads, at row `m = i·b + j` and
    column `k`, the operand at `(i, j, k)`: both have row-major position (i·b + j)·c + k. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (m : Fin n)
    (hm : m.val = i.val * b + j.val) :
    shapeCast ⟨2, ![n, c]⟩ x h (ix2 m k) = x (ix3 i j k) :=
  shapeCast_apply x h _ _ (by
    rw [Shape.rowMajor_val_three, Shape.rowMajor_val_two]
    show (i.val * b + j.val) * c + k.val = m.val * c + k.val
    rw [hm])

/-- An `[n, c]` array cast to `[a, d]` with `d = b·c` (each group of `b` consecutive rows laid side by side in one row)
    reads, at row `p` and lane `l = q·c + r`, the operand at row `m = p·b + q` and column `r`: both have row-major
    position p·b·c + q·c + r. -/
theorem shapeCast_nc_ad_apply {n c a d : ℕ} (b : ℕ) (x : (⟨2, ![n, c]⟩ : Shape).Idx → α)
    (h : (⟨2, ![n, c]⟩ : Shape).ShapeCasts ⟨2, ![a, d]⟩) (m : Fin n) (r : Fin c) (p : Fin a) (l : Fin d) (q : ℕ)
    (hd : d = b * c) (hm : m.val = p.val * b + q) (hl : l.val = q * c + r.val) :
    shapeCast ⟨2, ![a, d]⟩ x h (ix2 p l) = x (ix2 m r) :=
  shapeCast_apply x h _ _ (by
    rw [Shape.rowMajor_val_two, Shape.rowMajor_val_two]
    show m.val * c + r.val = p.val * d + l.val
    rw [hm, hl, hd, Nat.add_mul, Nat.mul_assoc, Nat.add_assoc])

end Cert.LibFlatten
-- ==== Proof.LibUnflatten.lean ====
/-
  The un-flattening shape cast read at an index written by coordinates, general in the extents: the reshape that
  splits the leading axis of a row-major matrix into two.
  • `shapeCast_nc_abc_apply`  [n, c] → [a, b, c] with n = a·b : entry (i, j, k) reads row i·b + j, column k
  It is the converse of the flattening cast [a, b, c] → [a·b, c]: a shape cast reads the operand at the index with the
  same row-major position (Lib/Pipeline/Value.lean `shapeCast_apply`), and (i·b + j)·c + k is the row-major position of
  (i, j, k) in [a, b, c] and of (i·b + j, k) in [a·b, c] alike.
-/
import Idealize.ShloMosaic.Lib.ValueLayout

namespace Cert.LibUnflatten

open Idealize.ShloMosaic Idealize.ShloMosaic.ValueIdx

variable {α : Type}

/-- An `[n, c]` matrix cast to `[a, b, c]` (the leading axis split in two, so n = a·b) reads, at `(i, j, k)`, the
    operand at row `m = i·b + j` and column `k`: both have row-major position (i·b + j)·c + k. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (m : Fin n)
    (hm : m.val = i.val * b + j.val) :
    shapeCast ⟨3, ![a, b, c]⟩ x h (ix3 i j k) = x (ix2 m k) :=
  shapeCast_apply x h _ _ (by
    rw [Shape.rowMajor_val_two, Shape.rowMajor_val_three]
    show m.val * c + k.val = (i.val * b + j.val) * c + k.val
    rw [hm])

end Cert.LibUnflatten
-- ==== Proof.Spec.lean ====
/-
  The specification and the two arrangements of it.

  For an array g of shape [4, 2048, 1024] (the gathered columns) and a weight array w of shape [4096, 1024] the result
  is  out g w (b, s, o) = Σ_{k < 1024} g (b, s, k) · w (o, k)  over the extended reals.

  The reference computes it as ONE contraction of g's last axis with w's last axis. The kernel's program computes it
  as a matrix product: g flattened to 8192 rows (row b·2048 + s), w transposed to [1024, 4096], the product
  [8192, 1024] × [1024, 4096] taken entry by entry, and the result split back into [4, 2048, 4096]. A change of float
  format is the identity on the extended reals, and both arrangements list the same 1024 products in the same order,
  so no law beyond re-indexing is needed: nothing here asks the entries to be finite.
-/
import Idealize.ShloMosaic.PureOps.Ideal.Laws
import Idealize.ShloMosaic.Lib.ValueIdx
import Idealize.ShloMosaic.Lib.ValueLayout
import proofs.«138380_j35296041238594_2_alg».proof.Proof.LibFlatten
import proofs.«138380_j35296041238594_2_alg».proof.Proof.LibUnflatten

noncomputable section

namespace Cert.Spec

open Idealize.ShloMosaic Idealize.ShloMosaic.ValueIdx

/-- The gathered columns' shape. -/
abbrev SG : Shape := ⟨3, ![4, 2048, 1024]⟩
/-- The weights' shape. -/
abbrev SW : Shape := ⟨2, ![4096, 1024]⟩
/-- The result's shape. -/
abbrev SO : Shape := ⟨3, ![4, 2048, 4096]⟩
/-- The flattened left factor's shape. -/
abbrev SA : Shape := ⟨2, ![8192, 1024]⟩
/-- The transposed weights' shape. -/
abbrev SB : Shape := ⟨2, ![1024, 4096]⟩
/-- The matrix product's shape. -/
abbrev SP : Shape := ⟨2, ![8192, 4096]⟩

/-- The result: entry (b, s, o) is the sum over k of g (b, s, k) · w (o, k). -/
def out (g : SG.Idx → EReal) (w : SW.Idx → EReal) : SO.Idx → EReal :=
  fun i => ∑ k : Fin 1024, g (ix3 (i 0) (i 1) k) * w (ix2 (i 2) k)

/-- The matrix product of a [8192, 1024] array with a [1024, 4096] array: entry (r, o) is the sum over k of
    a (r, k) · b (k, o). -/
def prod (a : SA.Idx → EReal) (b : SB.Idx → EReal) : SP.Idx → EReal :=
  fun j => ∑ k : Fin 1024, a (ix2 (j 0) k) * b (ix2 k (j 1))

theorem out_apply (g : SG.Idx → EReal) (w : SW.Idx → EReal) (b : Fin 4) (s : Fin 2048) (o : Fin 4096) :
    out g w (ix3 b s o) = ∑ k : Fin 1024, g (ix3 b s k) * w (ix2 o k) := rfl

theorem prod_apply (a : SA.Idx → EReal) (b : SB.Idx → EReal) (r : Fin 8192) (o : Fin 4096) :
    prod a b (ix2 r o) = ∑ k : Fin 1024, a (ix2 r k) * b (ix2 k o) := rfl

/-! ## The kernel's arrangement -/

/-- Flatten, transpose, multiply, split back: the kernel program's arrangement is the specification. The two narrowings
    to the 16-bit format are the identity on the extended reals; row b·2048 + s of the flattened array is row (b, s) of
    g, and entry (k, o) of the transposed weights is w (o, k). -/
theorem arranged_eq (g : FVec Ideal SG .f32) (w : FVec Ideal SW .f32)
    (h1 : SG.ShapeCasts SA) (h2 : SW.Transposes [1, 0] SB) (h3 : SP.ShapeCasts SO) (hb : FTy.bits .bf16 < FTy.bits .f32) :
    shapeCast SO (prod (truncf .bf16 (shapeCast SA g h1) hb) (truncf .bf16 (transpose SB [1, 0] w h2) hb)) h3 = out g w := by
  funext i
  obtain ⟨b, s, o, rfl⟩ : ∃ (b : Fin 4) (s : Fin 2048) (o : Fin 4096), i = ix3 b s o := ⟨i 0, i 1, i 2, eq_ix3 i⟩
  have hr : b.val * 2048 + s.val < 8192 := by have := b.isLt; have := s.isLt; omega
  rw [Cert.LibUnflatten.shapeCast_nc_abc_apply _ h3 b s o ⟨b.val * 2048 + s.val, hr⟩ rfl, prod_apply, out_apply]
  refine Finset.sum_congr rfl fun k _ => ?_
  rw [truncf_apply, truncf_apply, Cert.LibFlatten.shapeCast_abc_nc_apply g h1 b s k ⟨b.val * 2048 + s.val, hr⟩ rfl,
    transpose_ix2_apply w h2 k o]

/-! ## The reference's arrangement -/

/-- The reference's dimension numbers: the last axis of g against the last axis of w, no batch axis. -/
def colDims (wf : DotDims.WF SG SW SO [2] [1] [0, 1] [0] [] []) : DotDims SG SW SO where
  lhsContracting := [2]
  rhsContracting := [1]
  lhsNonContracting := [0, 1]
  rhsNonContracting := [0]
  lhsBatch := []
  rhsBatch := []
  wf := wf

variable (wf : DotDims.WF SG SW SO [2] [1] [0, 1] [0] [] [])

theorem lhs0 (j : SO.Idx) (q : (colDims wf).contr.Idx) : ((colDims wf).lhsIdx j q 0).val = (j 0).val := by
  unfold DotDims.lhsIdx
  rw [dif_neg (show ¬(0 : Fin SG.rank) ∈ (colDims wf).lhsBatch from List.not_mem_nil),
    dif_pos (show (0 : Fin SG.rank) ∈ (colDims wf).lhsNonContracting from List.mem_cons_self)]
  rfl

theorem lhs1 (j : SO.Idx) (q : (colDims wf).contr.Idx) : ((colDims wf).lhsIdx j q 1).val = (j 1).val := by
  unfold DotDims.lhsIdx
  rw [dif_neg (show ¬(1 : Fin SG.rank) ∈ (colDims wf).lhsBatch from List.not_mem_nil),
    dif_pos (show (1 : Fin SG.rank) ∈ (colDims wf).lhsNonContracting from List.mem_cons_of_mem _ (List.mem_singleton.mpr rfl))]
  rfl

theorem lhs2 (j : SO.Idx) (q : (colDims wf).contr.Idx) : ((colDims wf).lhsIdx j q 2).val = (q ⟨0, Nat.one_pos⟩).val :=
  (colDims wf).lhsIdx_val_of_single rfl j q

theorem rhs0 (j : SO.Idx) (q : (colDims wf).contr.Idx) : ((colDims wf).rhsIdx j q 0).val = (j 2).val := by
  unfold DotDims.rhsIdx
  rw [dif_neg (show ¬(0 : Fin SW.rank) ∈ (colDims wf).rhsBatch from List.not_mem_nil),
    dif_pos (show (0 : Fin SW.rank) ∈ (colDims wf).rhsNonContracting from List.mem_singleton.mpr rfl)]
  rfl

theorem rhs1 (j : SO.Idx) (q : (colDims wf).contr.Idx) : ((colDims wf).rhsIdx j q 1).val = (q ⟨0, Nat.one_pos⟩).val :=
  (colDims wf).rhsIdx_val_of_single rfl j q

/-- The host's contraction with these dimension numbers is the specification: its sum over the one contracted axis is
    the sum over k < 1024, the left factor read at (b, s, k) and the right one at (o, k). -/
theorem contracted_eq (d : DotDims SG SW SO) (hd : d = colDims wf) (g : FVec Ideal SG .f32) (w : FVec Ideal SW .f32) :
    Host.dotGeneral (F := Ideal) d none g w = out g w := by
  subst hd
  funext i
  obtain ⟨b, s, o, rfl⟩ : ∃ (b : Fin 4) (s : Fin 2048) (o : Fin 4096), i = ix3 b s o := ⟨i 0, i 1, i 2, eq_ix3 i⟩
  simp only [Host.dotGeneral]
  rw [Ideal.dotGeneral_apply, out_apply, ← Equiv.sum_comp (contrEquiv1 (colDims wf) 1024 rfl rfl).symm]
  refine Finset.sum_congr rfl fun k _ => ?_
  have hk := contrEquiv1_symm_val (colDims wf) 1024 rfl rfl k
  have el : (colDims wf).lhsIdx (ix3 b s o) ((contrEquiv1 (colDims wf) 1024 rfl rfl).symm k) = ix3 b s k :=
    funext fun a => Fin.ext (by
      match a with
      | ⟨0, _⟩ => exact lhs0 wf _ _
      | ⟨1, _⟩ => exact lhs1 wf _ _
      | ⟨2, _⟩ => exact (lhs2 wf _ _).trans hk)
  have er : (colDims wf).rhsIdx (ix3 b s o) ((contrEquiv1 (colDims wf) 1024 rfl rfl).symm k) = ix2 o k :=
    funext fun a => Fin.ext (by
      match a with
      | ⟨0, _⟩ => exact rhs0 wf _ _
      | ⟨1, _⟩ => exact (rhs1 wf _ _).trans hk)
  rw [el, er]

end Cert.Spec

end
-- ==== Proof.KernelBlocks.lean ====
/-
  The kernel's output array after the grid, as one matrix product.

  The output array of shape [8192, 4096] is written in 16 blocks of 1024 rows by 2048 columns: grid point (i, j) reads
  rows i·1024 … of the left factor (all 1024 columns of it), columns j·2048 … of the right factor (all 1024 rows of it),
  and stores their product into the block at rows i·1024 …, columns j·2048 …. Entry (p, q) of that block is the sum over
  k of left (i·1024 + p, k) · right (k, j·2048 + q), which is entry (i·1024 + p, j·2048 + q) of the product of the whole
  factors; the 16 blocks tile the array, so after the run the array is that product.
-/
import proofs.«138380_j35296041238594_2_alg».proof.Proof.Gen.KernelIdeal.Frame
import proofs.«138380_j35296041238594_2_alg».proof.Proof.LibPlainDot
import proofs.«138380_j35296041238594_2_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem origin : (![0, 0] : Fin 2 → Nat) = fun _ => 0 := funext fun a => by fin_cases a <;> rfl

/-- The body's stored value at entry (p, q): the product of the two loaded blocks into the zero accumulator, the casts
    to the blocks' own shapes being the identity. -/
theorem stored_apply (x0 : FVec Ideal S1024x1024 .bf16) (x1 : FVec Ideal S1024x2048 .bf16) (p : Fin 1024) (q : Fin 2048) :
    k0_pay1 (F := Ideal) x0 x1 (ix2 p q) = ∑ k : Fin 1024, x0 (ix2 p k) * x1 (ix2 k q) := by
  show matmul (F := Ideal) dot_S1024x1024_S1024x2048_S1024x2048_1_0_0_1_n_n none
      (shapeCast S1024x1024 x0 shapeCasts_S1024x1024_S1024x1024) (shapeCast S1024x2048 x1 shapeCasts_S1024x2048_S1024x2048)
      (constant S1024x2048 .f32 0x00000000#32) (ix2 p q) = _
  rw [shapeCast_self, shapeCast_self]
  exact Cert.PlainDot.matmul_zero_apply dot_S1024x1024_S1024x2048_S1024x2048_1_0_0_1_n_n rfl x0 x1 p q

/-- One grid point's stored block against the whole product: if the point's rows of the left block are rows r of the
    whole left factor and its columns of the right block are columns o of the whole right factor, the stored entry is
    the product's entry (r, o). -/
theorem point_eq (a : Cert.Spec.SA.Idx → EReal) (b : Cert.Spec.SB.Idx → EReal)
    (x0 : FVec Ideal S1024x1024 .bf16) (x1 : FVec Ideal S1024x2048 .bf16) (p : Fin 1024) (q : Fin 2048)
    (r : Fin 8192) (o : Fin 4096)
    (h0 : ∀ k : Fin 1024, x0 (ix2 p k) = a (ix2 r k)) (h1 : ∀ k : Fin 1024, x1 (ix2 k q) = b (ix2 k o)) :
    k0_pay1 (F := Ideal) x0 x1 (ix2 p q) = Cert.Spec.prod a b (ix2 r o) := by
  rw [stored_apply, Cert.Spec.prod_apply]
  exact Finset.sum_congr rfl fun k _ => by rw [h0 k, h1 k]

/-- The printed index maps over the 16 grid points: the left window moves with the output's rows and stays at column
    block 0, the right window stays at row block 0 and moves with the output's columns, and the output's block indices
    are below 8 and below 2. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2)
    ∧ win0_2.index t (0 : Fin 2) ≤ 7 ∧ win0_2.index t (1 : Fin 2) ≤ 1 :=
  (by decide +kernel : ∀ t : Fin grid0.N, _)

/-- Every block of the output array is some grid point's. -/
theorem index_onto : ∀ (q0 : Fin 8) (q1 : Fin 2), ∃ t : Fin cfg0.N, win0_2.index t = ![q0.val, q1.val] :=
  (by decide +kernel : ∀ (q0 : Fin 8) (q1 : Fin 2), ∃ t : Fin grid0.N, win0_2.index t = ![q0.val, q1.val])

/-- What grid point t writes back is block t of the product of the two factor arrays as the region finds them. -/
theorem flushed_eq (c : Dev nD) (t : Fin cfg0.N) :
    (dats m 0 c).flushed 2 t
      = ((cfg0.win 2).blk t).view.read (Elt Ideal) (Cert.Spec.prod (V m c main_v2) (V m c main_v4)) := by
  show (cfg0.win 2).cut (grid0.coords t) ((dats m 0 c).after 2 t) = _
  rw [after0_2]
  unfold out0_2
  rw [View.canon_unit_zero origin]
  simp only [View.ld_unit_zero (S := S1024x1024) origin, View.ld_unit_zero (S := S1024x2048) origin]
  obtain ⟨e0, e1, e2, e3, e4, e5⟩ := index_facts t
  funext j
  have hj0 : (j 0).val < 1024 := (j 0).isLt
  have hj1 : (j 1).val < 2048 := (j 1).isLt
  have hr : win0_2.index t (0 : Fin 2) * 1024 + (j 0).val < 8192 := by omega
  have ho : win0_2.index t (1 : Fin 2) * 2048 + (j 1).val < 4096 := by omega
  show k0_pay1 (F := Ideal) (iblk m c 0 t) (iblk m c 1 t) j
      = Cert.Spec.prod (V m c main_v2) (V m c main_v4) (((cfg0.win 2).blk t).view.emb j)
  have ej : j = ix2 (⟨(j 0).val, hj0⟩ : Fin 1024) (⟨(j 1).val, hj1⟩ : Fin 2048) :=
    funext fun a => Fin.ext (by match a with | ⟨0, _⟩ => rfl | ⟨1, _⟩ => rfl)
  have e2' : ((cfg0.win 2).blk t).view.emb j
      = ix2 (⟨win0_2.index t (0 : Fin 2) * 1024 + (j 0).val, hr⟩ : Fin 8192) (⟨win0_2.index t (1 : Fin 2) * 2048 + (j 1).val, ho⟩ : Fin 4096) := by
    funext a; apply Fin.ext
    match a with
    | ⟨0, _⟩ => show win0_2.index t (0 : Fin 2) * 1024 + 1 * (j 0).val = win0_2.index t (0 : Fin 2) * 1024 + (j 0).val; omega
    | ⟨1, _⟩ => show win0_2.index t (1 : Fin 2) * 2048 + 1 * (j 1).val = win0_2.index t (1 : Fin 2) * 2048 + (j 1).val; omega
  rw [e2']
  refine Eq.trans (congrArg (k0_pay1 (F := Ideal) (iblk m c 0 t) (iblk m c 1 t)) ej) ?_
  refine point_eq _ _ (iblk m c 0 t) (iblk m c 1 t) ⟨(j 0).val, hj0⟩ ⟨(j 1).val, hj1⟩ _ _ (fun k => ?_) (fun k => ?_)
  · show V m c main_v2 (((cfg0.win 0).blk t).view.emb (ix2 (⟨(j 0).val, hj0⟩ : Fin 1024) k)) = V m c main_v2 _
    refine congrArg (V m c main_v2) (funext fun a => Fin.ext ?_)
    match a with
    | ⟨0, _⟩ => show win0_0.index t (0 : Fin 2) * 1024 + 1 * (j 0).val = win0_2.index t (0 : Fin 2) * 1024 + (j 0).val; omega
    | ⟨1, _⟩ => show win0_0.index t (1 : Fin 2) * 1024 + 1 * k.val = k.val; omega
  · show V m c main_v4 (((cfg0.win 1).blk t).view.emb (ix2 k (⟨(j 1).val, hj1⟩ : Fin 2048))) = V m c main_v4 _
    refine congrArg (V m c main_v4) (funext fun a => Fin.ext ?_)
    match a with
    | ⟨0, _⟩ => show win0_1.index t (0 : Fin 2) * 1024 + 1 * k.val = k.val; omega
    | ⟨1, _⟩ => show win0_1.index t (1 : Fin 2) * 2048 + 1 * (j 1).val = win0_2.index t (1 : Fin 2) * 2048 + (j 1).val; omega

/-- An index of the output array is in point t's block iff each coordinate is in the block's range on its axis. -/
theorem mem_blk (t : Fin cfg0.N) (i : S8192x4096.Idx) :
    i ∈ ((cfg0.win 2).blk t).view.set ↔ ∀ a : Fin 2, win0_2.index t a * S1024x2048.size a ≤ (i a).val ∧ (i a).val < win0_2.index t a * S1024x2048.size a + S1024x2048.size a := by
  show i ∈ ((View.whole main_v5).slice (win0_2.rect t)).set ↔ _
  rw [View.set_slice_whole, Rect.mem_set_unit]
  exact Iff.rfl

/-- Every index of the output array is in the block of the point at (row / 1024, column / 2048). -/
theorem covered (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  obtain ⟨t, ht⟩ := index_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- The output array after the run is the product of the two factor arrays as the region finds them. -/
theorem final (c : Dev nD) :
    (dats m 0 c).arrAt 2 cfg0.N = Cert.Spec.prod (V m c main_v2) (V m c main_v4) :=
  (dats m 0 c).arrAt_eq_of_cover 2 _ (fun t _ => flushed_eq m c t) covered

end Cert.KernelIdeal.Blocks

end
-- ==== Proof.LibHostCalls.lean ====
/-
  Values passed through a called function's buffers, and the host's exponential and logarithm read at an entry.

  A host function that the program calls (an outlined relu, softmax, log-softmax …) runs its operations on buffers
  typed by the tensor values they hold: every value written into such a buffer is carried along the equation
  "the buffer's type is the value's type", and carried back when the next operation reads it. The two transports
  cancel: what is read back is what was written (`ofBuf_toBuf`). Rewriting with this lemma first leaves the called
  function's operations applied to one another directly, as the program's own top-level operations are.

  Over the extended reals the host's exponential and logarithm act entry by entry (`hostExp_apply`, `hostLog_apply`):
  stated as equations to rewrite with, so that a goal is never compared against the logarithm by unfolding it.
-/
import Idealize.ShloMosaic.Lib.StableHlo
import Idealize.ShloMosaic.PureOps.Ideal

noncomputable section

namespace Cert.Lib.HostCalls

open Idealize.ShloMosaic Idealize.ShloMosaic.StableHlo

/-- A value carried into a called function's buffer and read back out of it is the value. -/
theorem ofBuf_toBuf {sig : RefSig} {Val : EltTy → Type} {T : BufTy} (x : TRef sig T) (v : T.Contents Val) :
    x.ofBuf (x.toBuf v) = v := by
  obtain ⟨r, h, h1, h2⟩ := x
  subst h
  rfl

/-- The host's logarithm at an entry. -/
theorem hostLog_apply {s : Shape} {φ : FTy} (x : FVec Ideal s φ) (i : s.Idx) : Host.log x i = Ideal.log (x i) := rfl

/-- The host's exponential at an entry. -/
theorem hostExp_apply {s : Shape} {φ : FTy} (x : FVec Ideal s φ) (i : s.Idx) : Host.exp x i = Ideal.exp (x i) := rfl

end Cert.Lib.HostCalls

end
-- ==== Proof.KernelHost.lean ====
/-
  The kernel program's host side: what the region finds, and what the last line makes of the region's output.

  Before the region the program gathers the columns of x (the same 23 operations as the reference's gather), flattens
  the gathered array [4, 2048, 1024] to [8192, 1024] and narrows it to the 16-bit format — the left factor —, and
  transposes the weights [4096, 1024] to [1024, 4096] and narrows them — the right factor. After the region one
  reshape splits the product [8192, 4096] back into [4, 2048, 4096]: the program's result.
-/
import proofs.«138380_j35296041238594_2_alg».proof.Proof.Gen.KernelIdeal.Frame
import proofs.«138380_j35296041238594_2_alg».proof.Proof.LibHostCalls
import Idealize.ShloMosaic.Lib.StableHlo.Run

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]

/-- The gathered columns, as one function of the array `x` and the index words `idx`: a negative word is moved up by
    the row length 4096; column `k` of the result is column `idx k` of `x` (the word read signed and clamped into the
    row) when the moved word lies in `[0, 4095]`, and the fill pattern 0x7FC00000 otherwise. -/
def gathered (x : FVec F S4x2048x4096 .f32) (idx : IVec S1024 32) : FVec F S4x2048x1024 .f32 :=
  select
    (broadcastInDim S4x2048x1024 ![2] bcast_S1024_S4x2048x1024_2
      (Host.reduce IntOp.andi
        (andi
          (cmpi .sge
            (broadcastInDim S1024x1 ![0] bcast_S1024_S1024x1_0
              (select (cmpi .slt idx (broadcastInDim S1024 ![] bcast_S_S1024 (constantI S_ 32 0#32)))
                (addi idx (broadcastInDim S1024 ![] bcast_S_S1024 (constantI S_ 32 4096#32))) idx))
            (broadcastInDim S1024x1 ![] bcast_S_S1024x1 (constantI S_ 32 0#32)))
          (cmpi .sle
            (broadcastInDim S1024x1 ![0] bcast_S1024_S1024x1_0
              (select (cmpi .slt idx (broadcastInDim S1024 ![] bcast_S_S1024 (constantI S_ 32 0#32)))
                (addi idx (broadcastInDim S1024 ![] bcast_S_S1024 (constantI S_ 32 4096#32))) idx))
            (broadcastInDim S1024x1 ![0, 1] bcast_S1x1_S1024x1_0_1
              (broadcastInDim S1x1 ![1] bcast_S1_S1x1_1 (constantI S1 32 4095#32)))))
        (constantI S_ 1 1#1) reducesTo_S1024x1_S1024_d1 h_S_))
    (Host.gather gather_S4x2048x4096_S1024x1_S4x2048x1024_01_2_n_n_2_1_420481 x
      (broadcastInDim S1024x1 ![0] bcast_S1024_S1024x1_0
        (select (cmpi .slt idx (broadcastInDim S1024 ![] bcast_S_S1024 (constantI S_ 32 0#32)))
          (addi idx (broadcastInDim S1024 ![] bcast_S_S1024 (constantI S_ 32 4096#32))) idx)))
    (broadcastInDim S4x2048x1024 ![] bcast_S_S4x2048x1024 (constant (F := F) S_ .f32 0x7FC00000#32))

variable (m : (ℓ : Loc nD τ sig) → Buf (Elt F) ℓ)

attribute [local irreducible] Host.reduce Host.gather in
set_option maxRecDepth 8192 in
set_option maxHeartbeats 1600000 in
/-- The left factor as the region finds it: the gathered columns, flattened to 8192 rows and narrowed. -/
theorem left_factor (c : Dev nD) :
    (V m c main_v2 : FVec F S8192x1024 .bf16)
      = truncf .bf16 (shapeCast S8192x1024 (gathered (m ((c : Thread nD τ).loc main_arg0)) (m ((c : Thread nD τ).loc main_arg2)))
          shapeCasts_S4x2048x1024_S8192x1024) bitsLt_bf16_f32 := by
  dsimp only [V, V0]
  simp only [hostOps0, hostOps0_1, List.flatten_cons, List.flatten_nil, List.append_nil, List.cons_append, List.nil_append]
  after_results_simp
  simp only [Cert.Lib.HostCalls.ofBuf_toBuf]
  rfl

/-- The right factor as the region finds it: the weights transposed and narrowed. -/
theorem right_factor (c : Dev nD) :
    (V m c main_v4 : FVec F S1024x4096 .bf16)
      = truncf .bf16 (transpose S1024x4096 [1, 0] (m ((c : Thread nD τ).loc main_arg1)) transposes_S4096x1024_S1024x4096_1_0) bitsLt_bf16_f32 := by
  dsimp only [V, V0]
  simp only [hostOps0, hostOps0_1, List.flatten_cons, List.flatten_nil, List.append_nil, List.cons_append, List.nil_append]
  after_results

/-- The program's result after the last line: the region's output array, whatever the proof data says it holds after
    the run, split back into [4, 2048, 4096]. -/
theorem result_tail (c : Dev nD) :
    (Pipeline.afterTail₀ cfgs (dats m) 0 (V0 m) [hostOps1] c main_v6 : FVec F S4x2048x4096 .f32)
      = shapeCast S4x2048x4096 ((dats m 0 c).arrAt 2 cfg0.N : FVec F S8192x4096 .f32) shapeCasts_S8192x4096_S4x2048x4096 := by
  unfold Pipeline.afterTail₀
  show StableHlo.after hostOps1 _ (Proc.devRef .tc main_v6) = _
  after_results
  rw [Pipeline.withArrays_arr spec0 launch0.win.arr_inj c _ _ 2]
  rfl

end Cert.KernelIdeal.HostSide

end
-- ==== Proof.KernelValue.lean ====
/-
  The kernel program's run with its result named.

  After the run the result buffer holds the region's output array split into [4, 2048, 4096]; the output array is the
  product of the two factor arrays the region found; those are the gathered columns flattened and the weights
  transposed. By the re-indexing law of the specification the result is  Σ_k gathered (b, s, k) · w (o, k).
-/
import proofs.«138380_j35296041238594_2_alg».proof.Proof.KernelBlocks
import proofs.«138380_j35296041238594_2_alg».proof.Proof.KernelHost

noncomputable section

namespace Cert.KernelIdeal.Value

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result buffer after the last line is the specification at the gathered columns and the weights. -/
theorem result_eq (c : Dev nD) :
    Pipeline.afterTail₀ cfgs (dats m) 0 (V0 m) [hostOps1] c main_v6
      = Cert.Spec.out (Cert.KernelIdeal.HostSide.gathered (F := Ideal) (m ((c : Thread nD τ).loc main_arg0)) (m ((c : Thread nD τ).loc main_arg2)))
          (m ((c : Thread nD τ).loc main_arg1)) := by
  refine (Cert.KernelIdeal.HostSide.result_tail m c).trans ?_
  rw [Cert.KernelIdeal.Blocks.final m c, Cert.KernelIdeal.HostSide.left_factor m c, Cert.KernelIdeal.HostSide.right_factor m c]
  exact Cert.Spec.arranged_eq _ _ _ _ _ _

/-- Every weakly fair execution of the kernel program terminates with the result at the specification and the three
    arguments unchanged. -/
theorem run : θ_run defs (onTc (τ := τ) (main (F := Ideal))) ⟨m, fun _ => 0, ρ⟩ fun r => ∀ c : Dev nD,
      r.2.mem ((c.tc : Thread nD τ).loc main_v6)
          = Cert.Spec.out (Cert.KernelIdeal.HostSide.gathered (F := Ideal) (m ((c : Thread nD τ).loc main_arg0)) (m ((c : Thread nD τ).loc main_arg2)))
              (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v6 (Pipeline.mem_restRefs_of main_v6 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Value

end
-- ==== Proof.RefRun.lean ====
/-
  The reference program's run, read back.

  The reference gathers 1024 columns of the array x (shape [4, 2048, 4096]) at the index words idx and contracts the
  gathered array (shape [4, 2048, 1024]) with the weight array (shape [4096, 1024]) along the axis of length 1024.
  Its main function is a straight line of 24 host operations once the two called functions (the column gather and the
  element-wise choice inside it) are written out at their call sites: 23 operations produce the gathered array, one
  contracts it with the weights. Every execution ends with the result buffer at the contraction of `gathered x idx`
  with the weights, and the three argument arrays unchanged.
-/
import proofs.«138380_j35296041238594_2_alg».proof.Proof.Gen.ReferenceIdeal
import proofs.«138380_j35296041238594_2_alg».proof.Proof.LibHostCalls
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The gathered columns, as one function of the array `x` and the index words `idx`: a negative word is moved up by
    the row length 4096; column `k` of the result is column `idx k` of `x` (the word read signed and clamped into the
    row) when the moved word lies in `[0, 4095]`, and the fill pattern 0x7FC00000 otherwise. -/
def gathered (x : FVec F S4x2048x4096 .f32) (idx : IVec S1024 32) : FVec F S4x2048x1024 .f32 :=
  select
    (broadcastInDim S4x2048x1024 ![2] bcast_S1024_S4x2048x1024_2
      (Host.reduce IntOp.andi
        (andi
          (cmpi .sge
            (broadcastInDim S1024x1 ![0] bcast_S1024_S1024x1_0
              (select (cmpi .slt idx (broadcastInDim S1024 ![] bcast_S_S1024 (constantI S_ 32 0#32)))
                (addi idx (broadcastInDim S1024 ![] bcast_S_S1024 (constantI S_ 32 4096#32))) idx))
            (broadcastInDim S1024x1 ![] bcast_S_S1024x1 (constantI S_ 32 0#32)))
          (cmpi .sle
            (broadcastInDim S1024x1 ![0] bcast_S1024_S1024x1_0
              (select (cmpi .slt idx (broadcastInDim S1024 ![] bcast_S_S1024 (constantI S_ 32 0#32)))
                (addi idx (broadcastInDim S1024 ![] bcast_S_S1024 (constantI S_ 32 4096#32))) idx))
            (broadcastInDim S1024x1 ![0, 1] bcast_S1x1_S1024x1_0_1
              (broadcastInDim S1x1 ![1] bcast_S1_S1x1_1 (constantI S1 32 4095#32)))))
        (constantI S_ 1 1#1) reducesTo_S1024x1_S1024_d1 h_S_))
    (Host.gather gather_S4x2048x4096_S1024x1_S4x2048x1024_01_2_n_n_2_1_420481 x
      (broadcastInDim S1024x1 ![0] bcast_S1024_S1024x1_0
        (select (cmpi .slt idx (broadcastInDim S1024 ![] bcast_S_S1024 (constantI S_ 32 0#32)))
          (addi idx (broadcastInDim S1024 ![] bcast_S_S1024 (constantI S_ 32 4096#32))) idx)))
    (broadcastInDim S4x2048x1024 ![] bcast_S_S4x2048x1024 (constant (F := F) S_ .f32 0x7FC00000#32))

/-- The program's 24 operations in order: the 23 of the column gather, then the contraction. -/
abbrev ops : List (HloOp τ sig (Elt F)) :=
  [ TRef.nullary (.of main_call0_c : TRef sig ⟨S_, .i32⟩) (constantI S_ 32 0#32),
    TRef.unary (.of main_call0_c : TRef sig ⟨S_, .i32⟩) (.of main_call0_v0 : TRef sig ⟨S1024, .i32⟩) (broadcastInDim S1024 ![] bcast_S_S1024),
    TRef.binary (.of main_arg2 : TRef sig ⟨S1024, .i32⟩) (.of main_call0_v0 : TRef sig ⟨S1024, .i32⟩) (.of main_call0_v1 : TRef sig ⟨S1024, .i1⟩) (cmpi .slt),
    TRef.nullary (.of main_call0_c_0 : TRef sig ⟨S_, .i32⟩) (constantI S_ 32 4096#32),
    TRef.unary (.of main_call0_c_0 : TRef sig ⟨S_, .i32⟩) (.of main_call0_v2 : TRef sig ⟨S1024, .i32⟩) (broadcastInDim S1024 ![] bcast_S_S1024),
    TRef.binary (.of main_arg2 : TRef sig ⟨S1024, .i32⟩) (.of main_call0_v2 : TRef sig ⟨S1024, .i32⟩) (.of main_call0_v3 : TRef sig ⟨S1024, .i32⟩) addi,
    TRef.ternary (.of main_call0_v1 : TRef sig ⟨S1024, .i1⟩) (.of main_call0_v3 : TRef sig ⟨S1024, .i32⟩) (.of main_arg2 : TRef sig ⟨S1024, .i32⟩) (.of main_call0_v4 : TRef sig ⟨S1024, .i32⟩) select,
    TRef.unary main_call0_call0.v0 (.of main_call0_v5 : TRef sig ⟨S1024x1, .i32⟩) (broadcastInDim S1024x1 ![0] bcast_S1024_S1024x1_0),
    TRef.nullary (.of main_call0_c_1 : TRef sig ⟨S1, .i32⟩) (constantI S1 32 4095#32),
    TRef.nullary (.of main_call0_c_2 : TRef sig ⟨S_, .i32⟩) (constantI S_ 32 0#32),
    TRef.unary (.of main_call0_c_2 : TRef sig ⟨S_, .i32⟩) (.of main_call0_v6 : TRef sig ⟨S1024x1, .i32⟩) (broadcastInDim S1024x1 ![] bcast_S_S1024x1),
    TRef.binary (.of main_call0_v5 : TRef sig ⟨S1024x1, .i32⟩) (.of main_call0_v6 : TRef sig ⟨S1024x1, .i32⟩) (.of main_call0_v7 : TRef sig ⟨S1024x1, .i1⟩) (cmpi .sge),
    TRef.unary (.of main_call0_c_1 : TRef sig ⟨S1, .i32⟩) (.of main_call0_v8 : TRef sig ⟨S1x1, .i32⟩) (broadcastInDim S1x1 ![1] bcast_S1_S1x1_1),
    TRef.unary (.of main_call0_v8 : TRef sig ⟨S1x1, .i32⟩) (.of main_call0_v9 : TRef sig ⟨S1024x1, .i32⟩) (broadcastInDim S1024x1 ![0, 1] bcast_S1x1_S1024x1_0_1),
    TRef.binary (.of main_call0_v5 : TRef sig ⟨S1024x1, .i32⟩) (.of main_call0_v9 : TRef sig ⟨S1024x1, .i32⟩) (.of main_call0_v10 : TRef sig ⟨S1024x1, .i1⟩) (cmpi .sle),
    TRef.binary (.of main_call0_v7 : TRef sig ⟨S1024x1, .i1⟩) (.of main_call0_v10 : TRef sig ⟨S1024x1, .i1⟩) (.of main_call0_v11 : TRef sig ⟨S1024x1, .i1⟩) andi,
    TRef.nullary (.of main_call0_c_3 : TRef sig ⟨S_, .i1⟩) (constantI S_ 1 1#1),
    TRef.binary (.of main_call0_v11 : TRef sig ⟨S1024x1, .i1⟩) (.of main_call0_c_3 : TRef sig ⟨S_, .i1⟩) (.of main_call0_v12 : TRef sig ⟨S1024, .i1⟩) (fun x v => Host.reduce IntOp.andi x v reducesTo_S1024x1_S1024_d1 h_S_),
    TRef.binary (.of main_arg0 : TRef sig ⟨S4x2048x4096, .f32⟩) (.of main_call0_v5 : TRef sig ⟨S1024x1, .i32⟩) (.of main_call0_v13 : TRef sig ⟨S4x2048x1024, .f32⟩) (fun x i => Host.gather gather_S4x2048x4096_S1024x1_S4x2048x1024_01_2_n_n_2_1_420481 x i),
    TRef.unary (.of main_call0_v12 : TRef sig ⟨S1024, .i1⟩) (.of main_call0_v14 : TRef sig ⟨S4x2048x1024, .i1⟩) (broadcastInDim S4x2048x1024 ![2] bcast_S1024_S4x2048x1024_2),
    TRef.nullary (.of main_call0_cst : TRef sig ⟨S_, .f32⟩) (constant S_ .f32 0x7FC00000#32),
    TRef.unary (.of main_call0_cst : TRef sig ⟨S_, .f32⟩) (.of main_call0_v15 : TRef sig ⟨S4x2048x1024, .f32⟩) (broadcastInDim S4x2048x1024 ![] bcast_S_S4x2048x1024),
    TRef.ternary (.of main_call0_v14 : TRef sig ⟨S4x2048x1024, .i1⟩) (.of main_call0_v13 : TRef sig ⟨S4x2048x1024, .f32⟩) (.of main_call0_v15 : TRef sig ⟨S4x2048x1024, .f32⟩) (.of main_v0 : TRef sig ⟨S4x2048x1024, .f32⟩) select,
    binary main_v0 main_arg1 main_v1 ((fun l r => Host.dotGeneral dot_S4x2048x1024_S4096x1024_S4x2048x4096_2_1_01_0_n_n none l r) : (⟨S4x2048x1024, .f32⟩ : BufTy).Contents (Elt F) → (⟨S4096x1024, .f32⟩ : BufTy).Contents (Elt F) → (⟨S4x2048x4096, .f32⟩ : BufTy).Contents (Elt F)) ]

set_option maxRecDepth 4096 in
/-- The main function is that straight line: the called functions opened at their calls, the sequencing re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..⟩

attribute [local irreducible] Host.reduce Host.gather in
set_option maxRecDepth 8192 in
/-- What the result buffer holds after the 24 operations, from any contents `V` of the buffers before them. -/
theorem result_eq (V : Valuation τ sig (Elt F)) :
    after ops V (main_v1 : DevRef τ sig)
      = Host.dotGeneral dot_S4x2048x1024_S4096x1024_S4x2048x4096_2_1_01_0_n_n none
          (gathered (V (main_arg0 : DevRef τ sig)) (V (main_arg2 : DevRef τ sig))) (V (main_arg1 : DevRef τ sig)) := by
  after_results
  simp only [Cert.Lib.HostCalls.ofBuf_toBuf]
  rfl

theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results

/-- Every weakly fair execution of the reference terminates with the result at the contraction of the gathered columns
    with the weights, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1)
          = Host.dotGeneral dot_S4x2048x1024_S4096x1024_S4x2048x4096_2_1_01_0_n_n none
              (gathered (m ((c.tc : Thread nD τ).loc main_arg0)) (m ((c.tc : Thread nD τ).loc main_arg2)))
              (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v1).trans (result_eq _),
      (h c main_arg0).trans (arg0_eq _), (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.lean ====
/-
  Gathered-column product against its one-contraction reference, over the extended reals.

  Both programs first gather 1024 columns of x at the index words (the same 23 host operations, kept here as one
  function `gathered` that is never opened). The reference contracts the gathered array with the weights along the
  axis of length 1024. The kernel's program flattens the gathered array to 8192 rows, transposes the weights, multiplies
  the two matrices block by block on a grid of 8 × 2 points (each point a whole product of 1024 rows by 2048 columns,
  the contraction axis whole in every block), and splits the product back. Entry (b, s, o) of either result is
  Σ_{k < 1024} gathered (b, s, k) · w (o, k): the narrowings to the 16-bit format are the identity on the extended reals
  and both sides list the same products in the same order, so the precondition is not used.

  The three frames are the generated frame runs (the reference's is its run with the result dropped); the idealization
  rewrote nothing, so `preserves` is trivial.
-/
import proofs.«138380_j35296041238594_2_alg».proof.Defs
import proofs.«138380_j35296041238594_2_alg».proof.Proof.Gen.Kernel
import proofs.«138380_j35296041238594_2_alg».proof.Proof.Gen.Kernel.Skeleton
import proofs.«138380_j35296041238594_2_alg».proof.Proof.Gen.Kernel.Launch
import proofs.«138380_j35296041238594_2_alg».proof.Proof.Gen.Kernel.Points
import proofs.«138380_j35296041238594_2_alg».proof.Proof.Gen.Kernel.Frame
import proofs.«138380_j35296041238594_2_alg».proof.Proof.Gen.KernelIdeal
import proofs.«138380_j35296041238594_2_alg».proof.Proof.Gen.KernelIdeal.Skeleton
import proofs.«138380_j35296041238594_2_alg».proof.Proof.Gen.KernelIdeal.Launch
import proofs.«138380_j35296041238594_2_alg».proof.Proof.Gen.KernelIdeal.Points
import proofs.«138380_j35296041238594_2_alg».proof.Proof.Gen.KernelIdeal.Frame
import proofs.«138380_j35296041238594_2_alg».proof.Proof.Gen.ReferenceIdeal
import proofs.«138380_j35296041238594_2_alg».proof.Proof.Gen.Pre_finite_inputs
import proofs.«138380_j35296041238594_2_alg».proof.Proof.KernelValue
import proofs.«138380_j35296041238594_2_alg».proof.Proof.RefRun
import Idealize.ShloMosaic.Adequacy
import Idealize.ShloMosaic.Init

noncomputable section

namespace Cert.Proof

open Idealize.ShloMosaic Idealize.SL.Sem

attribute [local irreducible] Host.reduce Host.gather in
/-- The two programs' gathers are one function: the same operations on the same shapes, word for word. -/
theorem gathered_eq (x : FVec Ideal Cert.KernelIdeal.S4x2048x4096 .f32) (idx : IVec Cert.KernelIdeal.S1024 32) :
    Cert.ReferenceIdeal.RefRun.gathered (F := Ideal) x idx = Cert.KernelIdeal.HostSide.gathered (F := Ideal) x idx := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the specification of the gathered columns and the weights; the arguments agree, so the results do. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2, gathered_eq]
  exact Cert.Spec.contracted_eq Cert.ReferenceIdeal.Gen.dot_S4x2048x1024_S4096x1024_S4x2048x4096_2_1_01_0_n_n_wf _ rfl _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
